-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x32x128 : Shape := ⟨3, ![4096, 32, 128]⟩
abbrev S4096x32x1 : Shape := ⟨3, ![4096, 32, 1]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x32x1 : S_.BroadcastsInDim S4096x32x1 (![] : Fin 0 → Fin S4096x32x1.rank)
  reducesTo_S4096x32x1_S_d0_1_2 : S4096x32x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x2048x4096 .f32) (main_arg1 : IVec S4096x32x128 32) (main_arg2 : FVec F S4096x32x1 .f32) (main_arg3 : FVec F S4096x32x1 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x32x1 .f32 := Host.absf main_arg2
  let main_cst_0 : FVec F S_ .f32 := constant S_ .f32 0x7F800000#32
  let main_v5 : FVec F S4096x32x1 .f32 := broadcastInDim S4096x32x1 ![] bcast_S_S4096x32x1 main_cst_0
  let main_v6 : IVec S4096x32x1 1 := cmpf .olt main_v4 main_v5
  let main_c_1 : IVec S_ 1 := constantI S_ 1 1#1
  let main_v7 : IVec S_ 1 := (fun x v => Host.reduce IntOp.andi x v reducesTo_S4096x32x1_S_d0_1_2 h_S_) main_v6 main_c_1
  let main_v8 : IVec S_ 1 := andi main_v3 main_v7
  let main_v9 : FVec F S4096x32x1 .f32 := Host.absf main_arg3
  let main_cst_2 : FVec F S_ .f32 := constant S_ .f32 0x7F800000#32
  let main_v10 : FVec F S4096x32x1 .f32 := broadcastInDim S4096x32x1 ![] bcast_S_S4096x32x1 main_cst_2
  let main_v11 : IVec S4096x32x1 1 := cmpf .olt main_v9 main_v10
  let main_c_3 : IVec S_ 1 := constantI S_ 1 1#1
  let main_v12 : IVec S_ 1 := (fun x v => Host.reduce IntOp.andi x v reducesTo_S4096x32x1_S_d0_1_2 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x2048x4096 : Shape := ⟨3, ![2, 2048, 4096]⟩
abbrev S4096x32x128 : Shape := ⟨3, ![4096, 32, 128]⟩
abbrev S4096x32x1 : Shape := ⟨3, ![4096, 32, 1]⟩
abbrev S4096 : Shape := ⟨1, ![4096]⟩
abbrev S4096x4096 : Shape := ⟨2, ![4096, 4096]⟩
abbrev S4096x32 : Shape := ⟨2, ![4096, 32]⟩
abbrev S1x4096 : Shape := ⟨2, ![1, 4096]⟩
abbrev S256x4096 : Shape := ⟨2, ![256, 4096]⟩
abbrev S256x32 : Shape := ⟨2, ![256, 32]⟩
abbrev S1x256 : Shape := ⟨2, ![1, 256]⟩
abbrev S256x256 : Shape := ⟨2, ![256, 256]⟩
abbrev S256x32x128 : Shape := ⟨3, ![256, 32, 128]⟩
abbrev S256x32x1 : Shape := ⟨3, ![256, 32, 1]⟩

abbrev nBuf : Space → Nat
  | .hbm => 12
  | .vmem => 12
  | .smem => 0
  | _ => 0

abbrev bufTy : (tb : Table) → Fin (tcTables nBuf tb) → BufTy
  | .hbm, ⟨0, _⟩ => ⟨S2x2048x4096, .f32⟩
  | .hbm, ⟨1, _⟩ => ⟨S4096x32x128, .i32⟩
  | .hbm, ⟨2, _⟩ => ⟨S4096x32x1, .f32⟩
  | .hbm, ⟨3, _⟩ => ⟨S4096x32x1, .f32⟩
  | .hbm, ⟨4, _⟩ => ⟨S4096, .f32⟩
  | .hbm, ⟨5, _⟩ => ⟨S4096x4096, .f32⟩
  | .hbm, ⟨6, _⟩ => ⟨S4096x4096, .i32⟩
  | .hbm, ⟨7, _⟩ => ⟨S4096x32, .f32⟩
  | .hbm, ⟨8, _⟩ => ⟨S4096x32, .f32⟩
  | .hbm, ⟨9, _⟩ => ⟨S1x4096, .f32⟩
  | .hbm, ⟨10, _⟩ => ⟨S4096x4096, .f32⟩
  | .hbm, ⟨11, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x2048x4096_S4096x4096 : S2x2048x4096.ShapeCasts S4096x4096
  shapeCasts_S4096x32x128_S4096x4096 : S4096x32x128.ShapeCasts S4096x4096
  shapeCasts_S4096x32x1_S4096x32 : S4096x32x1.ShapeCasts S4096x32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S4096x4096_S2x2048x4096 : S4096x4096.ShapeCasts S2x2048x4096
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .f32 = 32 ∨ (Rect.block (s := S4096x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S4096x32.size a
  hwx0_3 : ∀ i : grid0.Coords, EltTy.bits .f32 = 32 ∨ (Rect.block (s := S4096x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S4096x4096.size a
  hwx0_5 : ∀ i : grid0.Coords, EltTy.bits .f32 = 32 ∨ (Rect.block (s := S4096x4096) S256x256.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S4096x32x128 : Shape := ⟨3, ![4096, 32, 128]⟩
abbrev S4096x32x1 : Shape := ⟨3, ![4096, 32, 1]⟩
abbrev S4096 : Shape := ⟨1, ![4096]⟩
abbrev S4096x4096 : Shape := ⟨2, ![4096, 4096]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x32x128, .i32⟩
  | .hbm, ⟨2, _⟩ => ⟨S4096x32x1, .f32⟩
  | .hbm, ⟨3, _⟩ => ⟨S4096x32x1, .f32⟩
  | .hbm, ⟨4, _⟩ => ⟨S4096, .f32⟩
  | .hbm, ⟨5, _⟩ => ⟨S4096x32x128, .f32⟩
  | .hbm, ⟨6, _⟩ => ⟨S4096x32x128, .f32⟩
  | .hbm, ⟨7, _⟩ => ⟨S4096x32x128, .f32⟩
  | .hbm, ⟨8, _⟩ => ⟨S4096x32x128, .f32⟩
  | .hbm, ⟨9, _⟩ => ⟨S4096x32x128, .f32⟩
  | .hbm, ⟨10, _⟩ => ⟨S4096x4096, .f32⟩
  | .hbm, ⟨11, _⟩ => ⟨S2x2048x4096, .f32⟩
  | .hbm, ⟨12, _⟩ => ⟨S1x1x4096, .f32⟩
  | .hbm, ⟨13, _⟩ => ⟨S2x2048x4096, .f32⟩
  | .hbm, ⟨14, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Spec.lean ====
/-
  What both programs compute, as ONE function of the five argument arrays, over the extended reals.

  A linear layer whose weight matrix is stored quantized: output feature `o` has 4096 integer codes `q[o, g, l]`,
  cut in 32 groups `g` of 128 lanes `l`, and each group has one scale `s[o, g]` and one offset `z[o, g]`. Input
  feature `k` sits in group `k / 128` at lane `k % 128`, and its weight is

      w[o, k] = q[o, k / 128, k % 128] · s[o, k / 128] + z[o, k / 128]      (the integer read exactly).

  The result at batch `a`, row `r`, output feature `o` is the inner product of the row with that weight row, plus a bias:

      out[a, r, o] = (Σ k < 4096, x[a, r, k] · w[o, k]) + b[o].

  Every factor stays where it is written (the product is `x · w`, the sum runs over `k` in `Fin 4096`, the bias is
  added last), so no law of the extended reals beyond the definitions is needed to meet either program.
-/
import Idealize.ShloMosaic.PureOps.Ideal
import Idealize.ShloMosaic.Lib.ValueIdx

noncomputable section

namespace Cert.Spec

open Idealize.ShloMosaic Idealize.ShloMosaic.ValueIdx

/-- The group of input feature `k`: 128 consecutive features share one scale and one offset. -/
abbrev grp (k : Fin 4096) : Fin 32 := ⟨k.val / 128, by have := k.isLt; omega⟩

/-- The place of input feature `k` inside its group. -/
abbrev lane (k : Fin 4096) : Fin 128 := ⟨k.val % 128, Nat.mod_lt _ (by decide)⟩

/-- The dequantized weight of output feature `o` at input feature `k`: the integer code, read exactly, times its
    group's scale, plus its group's offset. -/
def weight (q : (⟨3, ![4096, 32, 128]⟩ : Shape).Idx → BitVec 32) (s z : (⟨3, ![4096, 32, 1]⟩ : Shape).Idx → EReal)
    (o k : Fin 4096) : EReal :=
  (((q (ix3 o (grp k) (lane k))).toInt : ℝ) : EReal) * s (ix3 o (grp k) (0 : Fin 1)) + z (ix3 o (grp k) (0 : Fin 1))

/-- One entry of the result: the row's inner product with the weight row, plus the bias. -/
def entry (x : (⟨3, ![2, 2048, 4096]⟩ : Shape).Idx → EReal) (q : (⟨3, ![4096, 32, 128]⟩ : Shape).Idx → BitVec 32)
    (s z : (⟨3, ![4096, 32, 1]⟩ : Shape).Idx → EReal) (b : (⟨1, ![4096]⟩ : Shape).Idx → EReal)
    (a : Fin 2) (r : Fin 2048) (o : Fin 4096) : EReal :=
  (∑ k : Fin 4096, x (ix3 a r k) * weight q s z o k) + b (ix1 o)

/-- The whole result array. -/
def result (x : (⟨3, ![2, 2048, 4096]⟩ : Shape).Idx → EReal) (q : (⟨3, ![4096, 32, 128]⟩ : Shape).Idx → BitVec 32)
    (s z : (⟨3, ![4096, 32, 1]⟩ : Shape).Idx → EReal) (b : (⟨1, ![4096]⟩ : Shape).Idx → EReal) :
    (⟨3, ![2, 2048, 4096]⟩ : Shape).Idx → EReal :=
  fun i => entry x q s z b (i 0) (i 1) (i 2)

end Cert.Spec

end
-- ==== Proof.RefValue.lean ====
/-
  The reference program's result is `Cert.Spec.result` of its arguments.

  The reference dequantizes the whole weight array in its [4096, 32, 128] layout (the scale and the offset broadcast
  along the lanes), flattens it to [4096, 4096], contracts the input's last axis with the weight's last axis, and adds
  the bias broadcast over batch and row. Read at an index, the flattening sends weight column `k` of row `o` to the entry
  (o, k / 128, k % 128): the row-major position `o · 4096 + k` split by 4096, by 128 modulo 32, and modulo 128.
-/
import proofs.«177642_j44727789420717_1_alg».proof.Proof.Gen.ReferenceIdeal.Read
import proofs.«177642_j44727789420717_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Spec

/-- The input's entry the contraction reads at step `k`: the same batch and row, column `k`. -/
theorem lhs_index (a : Fin 2) (r : Fin 2048) (o k : Fin 4096) :
    lidx_main_v6 (ix3 a r o) k = ix3 a r k :=
  funext fun d => Fin.ext (by match d with | ⟨0, _⟩ => rfl | ⟨1, _⟩ => rfl | ⟨2, _⟩ => rfl)

/-- The code the flattened weight holds at row `o`, column `k`: group `k / 128`, lane `k % 128`. -/
theorem code_index (a : Fin 2) (r : Fin 2048) (o k : Fin 4096) :
    idx_main_v5 (ridx_main_v6 (ix3 a r o) k) = ix3 o (grp k) (lane k) :=
  funext fun d => Fin.ext (by
    have ho : o.val < 4096 := o.isLt
    have hk : k.val < 4096 := k.isLt
    match d with
    | ⟨0, _⟩ => show (o.val * 4096 + k.val) / 4096 = o.val; omega
    | ⟨1, _⟩ => show (o.val * 4096 + k.val) / 128 % 32 = k.val / 128; omega
    | ⟨2, _⟩ => show (o.val * 4096 + k.val) % 128 = k.val % 128; omega)

/-- The scale (and the offset) broadcast along the lanes: every lane of a group reads the group's one entry. -/
theorem group_index (a : Fin 2) (r : Fin 2048) (o k : Fin 4096) :
    idx_main_v1 (idx_main_v5 (ridx_main_v6 (ix3 a r o) k)) = ix3 o (grp k) (0 : Fin 1) :=
  funext fun d => Fin.ext (by
    have ho : o.val < 4096 := o.isLt
    have hk : k.val < 4096 := k.isLt
    match d with
    | ⟨0, _⟩ => show (o.val * 4096 + k.val) / 4096 = o.val; omega
    | ⟨1, _⟩ => show (o.val * 4096 + k.val) / 128 % 32 = k.val / 128; omega
    | ⟨2, _⟩ => rfl)

/-- The bias broadcast over batch and row: entry (a, r, o) reads `b[o]`. -/
theorem bias_index (a : Fin 2) (r : Fin 2048) (o : Fin 4096) : idx_main_v7 (idx_main_v8 (ix3 a r o)) = ix1 o :=
  funext fun d => Fin.ext (by match d with | ⟨0, _⟩ => rfl)

/-- The reference's result, stage by stage at an index, is the specification's entry. -/
theorem result_eq (x0 : (⟨S2x2048x4096, .f32⟩ : BufTy).Contents (Elt Ideal)) (x1 : (⟨S4096x32x128, .i32⟩ : BufTy).Contents (Elt Ideal))
    (x2 x3 : (⟨S4096x32x1, .f32⟩ : BufTy).Contents (Elt Ideal)) (x4 : (⟨S4096, .f32⟩ : BufTy).Contents (Elt Ideal)) :
    val_main_v9 (F := Ideal) x0 x1 x2 x3 x4 = Cert.Spec.result x0 x1 x2 x3 x4 := by
  funext i
  obtain ⟨a, r, o, rfl⟩ : ∃ (a : Fin 2) (r : Fin 2048) (o : Fin 4096), i = ix3 a r o := ⟨i 0, i 1, i 2, eq_ix3 i⟩
  rw [val_main_v9_apply, val_main_v6_apply, val_main_v8_apply, val_main_v7_apply, bias_index]
  show _ = Cert.Spec.entry x0 x1 x2 x3 x4 a r o
  unfold Cert.Spec.entry
  refine congrArg (fun t => t + x4 (ix1 o)) ?_
  refine Finset.sum_congr rfl fun k _ => ?_
  rw [lhs_index, val_main_v5_apply, val_main_v4_apply, val_main_v2_apply, val_main_v0_apply, val_main_v1_apply,
    val_main_v3_apply]
  refine congrArg (fun t => x0 (ix3 a r k) * t) ?_
  show FloatOps.addf (F := Ideal) (φ := .f32) (FloatOps.mulf (F := Ideal) (φ := .f32) (FloatOps.sitofp .f32 (x1 (idx_main_v5 (ridx_main_v6 (ix3 a r o) k))))
      (x2 (idx_main_v1 (idx_main_v5 (ridx_main_v6 (ix3 a r o) k))))) (x3 (idx_main_v1 (idx_main_v5 (ridx_main_v6 (ix3 a r o) k)))) = Cert.Spec.weight x1 x2 x3 o k
  rw [group_index, code_index]
  rfl

end Cert.ReferenceIdeal.RefValue

end
-- ==== Proof.KernelPayload.lean ====
/-
  The kernel body's one stored value, read at an entry of its [256, 256] output block.

  At a grid point the body holds a [256, 4096] block of the input rows, a [256, 4096] block of integer codes (256
  output features), their [256, 32] scales and offsets, and a [1, 256] stretch of the bias. It regroups the codes to
  [256, 32, 128], multiplies by the scale and adds the offset (each broadcast along the 128 lanes of its group),
  flattens back to [256, 4096], multiplies the input block by that block along the shared axis of 4096 into a zero
  accumulator, and adds the bias row to every row. Entry (p, r) of the block is therefore

      (Σ k < 4096, x[p, k] · (q[r, k] · s[r, k / 128] + z[r, k / 128])) + b[0, r]:

  regrouping and flattening are inverse re-readings of the row-major position `r · 4096 + k`, the narrowing of both
  matrix operands to a shorter float format is the identity on the extended reals, and the block product into a zero
  accumulator is the plain sum over the contracted axis.
-/
import proofs.«177642_j44727789420717_1_alg».proof.Proof.Gen.KernelIdeal.Skeleton
import proofs.«177642_j44727789420717_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx Cert.Spec

/-! ## The layout steps, each read at an index -/

/-- A [256, 4096] block regrouped to [256, 32, 128] reads, at (r, k / 128, k % 128), the block at (r, k): both are the
    row-major position `r · 4096 + k`. -/
theorem regroup_apply {α : Type} (v : S256x4096.Idx → α) (h : S256x4096.ShapeCasts S256x32x128) (r : Fin 256) (k : Fin 4096) :
    shapeCast S256x32x128 v h (ix3 r (grp k) (lane k)) = v (ix2 r k) :=
  shapeCast_apply v h (ix3 r (grp k) (lane k)) (ix2 r k) (by
    rw [Shape.rowMajor_val_two, Shape.rowMajor_val_three]
    have hk : k.val < 4096 := k.isLt
    show r.val * 4096 + k.val = (r.val * 32 + k.val / 128) * 128 + k.val % 128
    omega)

/-- Flattened back to [256, 4096], entry (r, k) reads the grouped block at (r, k / 128, k % 128). -/
theorem flatten_apply {α : Type} (v : S256x32x128.Idx → α) (h : S256x32x128.ShapeCasts S256x4096) (r : Fin 256) (k : Fin 4096) :
    shapeCast S256x4096 v h (ix2 r k) = v (ix3 r (grp k) (lane k)) :=
  shapeCast_apply v h (ix2 r k) (ix3 r (grp k) (lane k)) (by
    rw [Shape.rowMajor_val_two, Shape.rowMajor_val_three]
    have hk : k.val < 4096 := k.isLt
    show (r.val * 32 + k.val / 128) * 128 + k.val % 128 = r.val * 4096 + k.val
    omega)

/-- A [256, 32] block given a trailing unit axis reads the block at its first two coordinates. -/
theorem column_apply {α : Type} (v : S256x32.Idx → α) (h : S256x32.ShapeCasts S256x32x1) (r : Fin 256) (g : Fin 32) (u : Fin 1) :
    shapeCast S256x32x1 v h (ix3 r g u) = v (ix2 r g) :=
  shapeCast_apply v h (ix3 r g u) (ix2 r g) (by
    rw [Shape.rowMajor_val_two, Shape.rowMajor_val_three]
    have hu : u.val < 1 := u.isLt
    show r.val * 32 + g.val = (r.val * 32 + g.val) * 1 + u.val
    omega)

/-- A [256, 32, 1] block broadcast along 128 lanes: every lane of a group reads the group's one entry. -/
theorem lanes_apply {α : Type} (v : S256x32x1.Idx → α) (h : S256x32x1.Broadcasts S256x32x128) (r : Fin 256) (g : Fin 32) (l : Fin 128) :
    broadcastTo S256x32x128 v h (ix3 r g l) = v (ix3 r g (0 : Fin 1)) :=
  broadcastTo_apply v h (ix3 r g l) (ix3 r g (0 : Fin 1)) fun a => by
    match a with
    | ⟨0, _⟩ => show r.val = if (256 : Nat) = 1 then 0 else r.val; rw [if_neg (by decide)]
    | ⟨1, _⟩ => show g.val = if (32 : Nat) = 1 then 0 else g.val; rw [if_neg (by decide)]
    | ⟨2, _⟩ => show 0 = if (1 : Nat) = 1 then 0 else l.val; rw [if_pos rfl]

/-! ## The block product -/

/-- The left operand's entry the product reads for output entry (p, r): row `p`. -/
theorem product_lhs_row (j : S256x256.Idx) (q : dot_S256x4096_S256x4096_S256x256_1_1_0_0_n_n.contr.Idx) :
    (dot_S256x4096_S256x4096_S256x256_1_1_0_0_n_n.lhsIdx j q 0).val = (j 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl

/-- The right operand's: row `r` (the right operand is contracted along its SECOND axis too, so its rows are the
    output's columns). -/
theorem product_rhs_row (j : S256x256.Idx) (q : dot_S256x4096_S256x4096_S256x256_1_1_0_0_n_n.contr.Idx) :
    (dot_S256x4096_S256x4096_S256x256_1_1_0_0_n_n.rhsIdx j q 0).val = (j 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl

/-- The block product into a zero accumulator, at (p, r): the sum over the shared axis of the two rows' products. -/
theorem product_apply (l w : FVec Ideal S256x4096 .bf16) (p r : Fin 256) :
    matmul dot_S256x4096_S256x4096_S256x256_1_1_0_0_n_n none l w (constant S256x256 .f32 0x00000000#32) (ix2 p r)
      = ∑ k : Fin 4096, l (ix2 p k) * w (ix2 r k) := by
  simp only [matmul]
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p r) ((contrEquiv1 dot_S256x4096_S256x4096_S256x256_1_1_0_0_n_n 4096 rfl rfl).symm k) = ix2 p k := funext fun a => Fin.ext (by
    match a with
    | ⟨0, _⟩ => exact product_lhs_row _ _
    | ⟨1, _⟩ => exact (dot_S256x4096_S256x4096_S256x256_1_1_0_0_n_n.lhsIdx_val_of_single rfl _ _).trans hk)
  have er : dot_S256x4096_S256x4096_S256x256_1_1_0_0_n_n.rhsIdx (ix2 p r) ((contrEquiv1 dot_S256x4096_S256x4096_S256x256_1_1_0_0_n_n 4096 rfl rfl).symm k) = ix2 r k := funext fun a => Fin.ext (by
    match a with
    | ⟨0, _⟩ => exact product_rhs_row _ _
    | ⟨1, _⟩ => exact (dot_S256x4096_S256x4096_S256x256_1_1_0_0_n_n.rhsIdx_val_of_single rfl _ _).trans hk)
  rw [el, er]

/-! ## The stored value at an entry -/

/-- The dequantized weight the body forms from its blocks, at output feature `r` of the block and input feature `k`. -/
def blockWeight (x1 : Vec Ideal S256x4096 .i32) (x2 x3 : Vec Ideal S256x32 .f32) (r : Fin 256) (k : Fin 4096) : EReal :=
  (((x1 (ix2 r k)).toInt : ℝ) : EReal) * x2 (ix2 r (grp k)) + x3 (ix2 r (grp k))

/-- Entry (p, r) of what the body stores: row `p` of the input block against dequantized weight row `r`, plus the
    bias at column `r`. -/
theorem pay_apply (x0 : Vec Ideal S256x4096 .f32) (x1 : Vec Ideal S256x4096 .i32) (x2 x3 : Vec Ideal S256x32 .f32)
    (x4 : Vec Ideal S1x256 .f32) (p r : Fin 256) :
    k0_pay1 x0 x1 x2 x3 x4 (ix2 p r)
      = (∑ k : Fin 4096, x0 (ix2 p k) * blockWeight x1 x2 x3 r k) + x4 (ix2 (0 : Fin 1) r) := by
  unfold k0_pay1
  simp only [shapeCast_self]
  rw [addf_apply, broadcastTo_1b_ab_apply, product_apply]
  refine congrArg (· + x4 (ix2 (0 : Fin 1) r)) (Finset.sum_congr rfl fun k _ => ?_)
  rw [truncf_apply, truncf_apply, flatten_apply, addf_apply, mulf_apply, lanes_apply, lanes_apply, column_apply,
    column_apply, regroup_apply, sitofp_apply]
  rfl

end Cert.KernelIdeal.Payload

end
-- ==== Proof.KernelSpec.lean ====
/-
  The kernel's region works on FLATTENED arrays: the input as [4096, 4096] (batch and row merged into one axis of
  2 · 2048 rows), the codes as [4096, 4096] (group and lane merged into one axis of input features), the scales and
  offsets as [4096, 32], the bias as one row [1, 4096]. This module states what the region's output array [4096, 4096]
  holds as one function of those five flattened arrays:

      flat[n, o] = (Σ k < 4096, X[n, k] · (Q[o, k] · S[o, k / 128] + Z[o, k / 128])) + B[0, o].
-/
import proofs.«177642_j44727789420717_1_alg».proof.Proof.Spec

noncomputable section

namespace Cert.KernelSpec

open Idealize.ShloMosaic Idealize.ShloMosaic.ValueIdx Cert.Spec

/-- The dequantized weight of output feature `o` at input feature `k`, from the flattened codes, scales and offsets. -/
def flatWeight (Q : (⟨2, ![4096, 4096]⟩ : Shape).Idx → BitVec 32) (Sc Z : (⟨2, ![4096, 32]⟩ : Shape).Idx → EReal)
    (o k : Fin 4096) : EReal :=
  (((Q (ix2 o k)).toInt : ℝ) : EReal) * Sc (ix2 o (grp k)) + Z (ix2 o (grp k))

/-- One entry of the region's output: flattened row `n` against weight row `o`, plus the bias at `o`. -/
def flatEntry (X : (⟨2, ![4096, 4096]⟩ : Shape).Idx → EReal) (Q : (⟨2, ![4096, 4096]⟩ : Shape).Idx → BitVec 32)
    (Sc Z : (⟨2, ![4096, 32]⟩ : Shape).Idx → EReal) (B : (⟨2, ![1, 4096]⟩ : Shape).Idx → EReal) (n o : Fin 4096) : EReal :=
  (∑ k : Fin 4096, X (ix2 n k) * flatWeight Q Sc Z o k) + B (ix2 (0 : Fin 1) o)

/-- The region's whole output array. -/
def flatResult (X : (⟨2, ![4096, 4096]⟩ : Shape).Idx → EReal) (Q : (⟨2, ![4096, 4096]⟩ : Shape).Idx → BitVec 32)
    (Sc Z : (⟨2, ![4096, 32]⟩ : Shape).Idx → EReal) (B : (⟨2, ![1, 4096]⟩ : Shape).Idx → EReal) :
    (⟨2, ![4096, 4096]⟩ : Shape).Idx → EReal :=
  fun i => flatEntry X Q Sc Z B (i 0) (i 1)

end Cert.KernelSpec

end
-- ==== Proof.KernelBlocks.lean ====
/-
  From the body's blocks to the region's whole output array.

  The grid has 16 × 16 points; at point (i, j) the output window's block is rows 256·i … 256·i + 255 and columns
  256·j … 256·j + 255 of the [4096, 4096] output. The input rows' window moves with i (block index (i, 0)), the codes',
  scales' and offsets' windows move with j (block index (j, 0)), and the bias row's window is at (0, j). So entry (p, r)
  of the block written back at a point is entry (256·i + p, 256·j + r) of ONE function of the five flattened arrays
  (`Cert.KernelSpec.flatResult`), the 256 blocks tile the output, and the output array ends holding that function.
-/
import proofs.«177642_j44727789420717_1_alg».proof.Proof.Gen.KernelIdeal.Frame
import proofs.«177642_j44727789420717_1_alg».proof.Proof.KernelPayload
import proofs.«177642_j44727789420717_1_alg».proof.Proof.KernelSpec
import Idealize.ShloMosaic.Lib.Pipeline.Value

noncomputable section

namespace Cert.KernelIdeal.Blocks

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat)
open Cert.Spec Cert.KernelSpec

variable (m : (ℓ : Loc nD τ sig) → Buf (Elt Ideal) ℓ)

theorem hz : (![0, 0] : Fin 2 → Nat) = fun _ => 0 := funext fun a => by fin_cases a <;> rfl

/-! ## The windows' block indices, related once over the grid -/

/-- The input rows' block follows the output block's rows; the codes', scales' and offsets' blocks follow its columns;
    the bias row's block follows its columns on the second axis; every other block index is 0. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2) :=
  (by decide +kernel : ∀ t : Fin grid0.N, _)

/-- The output's block indices stay below 16 on both axes. -/
theorem out_index_le : ∀ t : Fin cfg0.N, win0_5.index t (0 : Fin 2) ≤ 15 ∧ win0_5.index t (1 : Fin 2) ≤ 15 :=
  (by decide +kernel : ∀ t : Fin grid0.N, _)

/-- Every one of the 16 × 16 output blocks is some point's. -/
theorem idx_onto : ∀ (q0 q1 : Fin 16), ∃ t : Fin cfg0.N, win0_5.index t = ![q0.val, q1.val] :=
  (by decide +kernel : ∀ (q0 q1 : Fin 16), ∃ t : Fin grid0.N, win0_5.index t = ![q0.val, q1.val])

/-- The output row that row `p` of point `t`'s block is. -/
def rowOf (t : Fin cfg0.N) (p : Fin 256) : Fin 4096 :=
  ⟨win0_5.index t (0 : Fin 2) * 256 + p.val, by have h := (out_index_le t).1; have := p.isLt; omega⟩

/-- The output column that column `r` of point `t`'s block is. -/
def colOf (t : Fin cfg0.N) (r : Fin 256) : Fin 4096 :=
  ⟨win0_5.index t (1 : Fin 2) * 256 + r.val, by have h := (out_index_le t).2; have := r.isLt; omega⟩

/-! ## Each window's block read off its array -/

/-- The output block's entry (p, r) sits at (rowOf, colOf) of the output array. -/
theorem out_index (t : Fin cfg0.N) (p r : Fin 256) :
    (((cfg0.win 5).blk t).view.emb (ix2 p r) : S4096x4096.Idx) = ix2 (rowOf t p) (colOf t r) := by
  funext a; apply Fin.ext
  match a with
  | ⟨0, _⟩ => show win0_5.index t (0 : Fin 2) * 256 + 1 * p.val = win0_5.index t (0 : Fin 2) * 256 + p.val; omega
  | ⟨1, _⟩ => show win0_5.index t (1 : Fin 2) * 256 + 1 * r.val = win0_5.index t (1 : Fin 2) * 256 + r.val; omega

/-- The input rows' block: row `p` is flattened input row `rowOf t p`, all 4096 columns. -/
theorem read_x (c : Dev nD) (t : Fin cfg0.N) (p : Fin 256) (k : Fin 4096) :
    (iblk m c 0 t : Vec Ideal S256x4096 .f32) (ix2 p k) = (V m c main_v0 : S4096x4096.Idx → Elt Ideal .f32) (ix2 (rowOf t p) k) := by
  obtain ⟨e0, e1, -⟩ := idx_facts t
  unfold iblk
  rw [View.read_apply]
  show V m c main_v0 _ = V m c main_v0 (ix2 (rowOf t p) k)
  refine congrArg (V m c main_v0) (funext fun a => Fin.ext ?_)
  match a with
  | ⟨0, _⟩ => show win0_0.index t (0 : Fin 2) * 256 + 1 * p.val = win0_5.index t (0 : Fin 2) * 256 + p.val; omega
  | ⟨1, _⟩ => show win0_0.index t (1 : Fin 2) * 4096 + 1 * k.val = k.val; omega

/-- The codes' block: row `r` is the code row of output feature `colOf t r`. -/
theorem read_q (c : Dev nD) (t : Fin cfg0.N) (r : Fin 256) (k : Fin 4096) :
    (iblk m c 1 t : Vec Ideal S256x4096 .i32) (ix2 r k) = (V m c main_v1 : S4096x4096.Idx → Elt Ideal .i32) (ix2 (colOf t r) k) := by
  obtain ⟨-, -, e0, e1, -⟩ := idx_facts t
  unfold iblk
  rw [View.read_apply]
  show V m c main_v1 _ = V m c main_v1 (ix2 (colOf t r) k)
  refine congrArg (V m c main_v1) (funext fun a => Fin.ext ?_)
  match a with
  | ⟨0, _⟩ => show win0_1.index t (0 : Fin 2) * 256 + 1 * r.val = win0_5.index t (1 : Fin 2) * 256 + r.val; omega
  | ⟨1, _⟩ => show win0_1.index t (1 : Fin 2) * 4096 + 1 * k.val = k.val; omega

/-- The scales' block: row `r` is the scale row of output feature `colOf t r`. -/
theorem read_s (c : Dev nD) (t : Fin cfg0.N) (r : Fin 256) (g : Fin 32) :
    (iblk m c 2 t : Vec Ideal S256x32 .f32) (ix2 r g) = (V m c main_v2 : S4096x32.Idx → Elt Ideal .f32) (ix2 (colOf t r) g) := by
  obtain ⟨-, -, -, -, e0, e1, -⟩ := idx_facts t
  unfold iblk
  rw [View.read_apply]
  show V m c main_v2 _ = V m c main_v2 (ix2 (colOf t r) g)
  refine congrArg (V m c main_v2) (funext fun a => Fin.ext ?_)
  match a with
  | ⟨0, _⟩ => show win0_2.index t (0 : Fin 2) * 256 + 1 * r.val = win0_5.index t (1 : Fin 2) * 256 + r.val; omega
  | ⟨1, _⟩ => show win0_2.index t (1 : Fin 2) * 32 + 1 * g.val = g.val; omega

/-- The offsets' block likewise. -/
theorem read_z (c : Dev nD) (t : Fin cfg0.N) (r : Fin 256) (g : Fin 32) :
    (iblk m c 3 t : Vec Ideal S256x32 .f32) (ix2 r g) = (V m c main_v3 : S4096x32.Idx → Elt Ideal .f32) (ix2 (colOf t r) g) := by
  obtain ⟨-, -, -, -, -, -, e0, e1, -⟩ := idx_facts t
  unfold iblk
  rw [View.read_apply]
  show V m c main_v3 _ = V m c main_v3 (ix2 (colOf t r) g)
  refine congrArg (V m c main_v3) (funext fun a => Fin.ext ?_)
  match a with
  | ⟨0, _⟩ => show win0_3.index t (0 : Fin 2) * 256 + 1 * r.val = win0_5.index t (1 : Fin 2) * 256 + r.val; omega
  | ⟨1, _⟩ => show win0_3.index t (1 : Fin 2) * 32 + 1 * g.val = g.val; omega

/-- The bias row's block: column `r` is the bias at output feature `colOf t r`. -/
theorem read_b (c : Dev nD) (t : Fin cfg0.N) (r : Fin 256) :
    (iblk m c 4 t : Vec Ideal S1x256 .f32) (ix2 (0 : Fin 1) r) = (V m c main_v4 : S1x4096.Idx → Elt Ideal .f32) (ix2 (0 : Fin 1) (colOf t r)) := by
  obtain ⟨-, -, -, -, -, -, -, -, e0, e1⟩ := idx_facts t
  unfold iblk
  rw [View.read_apply]
  show V m c main_v4 _ = V m c main_v4 (ix2 (0 : Fin 1) (colOf t r))
  refine congrArg (V m c main_v4) (funext fun a => Fin.ext ?_)
  match a with
  | ⟨0, _⟩ => show win0_4.index t (0 : Fin 2) * 1 + 1 * 0 = 0; omega
  | ⟨1, _⟩ => show win0_4.index t (1 : Fin 2) * 256 + 1 * r.val = win0_5.index t (1 : Fin 2) * 256 + r.val; omega

/-! ## What a point writes back, and the array after the run -/

/-- The region's output as one function of the five flattened arrays as the region finds them. -/
abbrev flat (c : Dev nD) : S4096x4096.Idx → Elt Ideal .f32 :=
  flatResult (V m c main_v0) (V m c main_v1) (V m c main_v2) (V m c main_v3) (V m c main_v4)

/-- WHAT POINT `t` WRITES BACK is block `t` of that function. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5]
  unfold out0_5
  rw [View.canon_unit_zero hz]
  simp only [View.ld_unit_zero (S := S256x4096) hz, View.ld_unit_zero (S := S256x32) hz, View.ld_unit_zero (S := S1x256) hz]
  funext j
  obtain ⟨p, r, rfl⟩ : ∃ (p r : Fin 256), j = ix2 p r := ⟨j 0, j 1, eq_ix2 j⟩
  rw [View.read_apply, out_index]
  show k0_pay1 (iblk m c 0 t) (iblk m c 1 t) (iblk m c 2 t) (iblk m c 3 t) (iblk m c 4 t) (ix2 p r)
    = flatEntry (V m c main_v0) (V m c main_v1) (V m c main_v2) (V m c main_v3) (V m c main_v4) (rowOf t p) (colOf t r)
  refine (pay_apply (iblk m c 0 t) (iblk m c 1 t) (iblk m c 2 t) (iblk m c 3 t) (iblk m c 4 t) p r).trans ?_
  unfold flatEntry
  rw [read_b]
  refine congrArg (· + (V m c main_v4 : S1x4096.Idx → Elt Ideal .f32) (ix2 (0 : Fin 1) (colOf t r))) (Finset.sum_congr rfl fun k _ => ?_)
  unfold blockWeight flatWeight
  rw [read_x, read_q, read_s, read_z]

/-- An index of the output array is in point `t`'s block iff each coordinate is in the block's range on its axis. -/
theorem mem_blk (t : Fin cfg0.N) (i : S4096x4096.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v5).slice (win0_5.rect t)).set ↔ _
  rw [View.set_slice_whole, Rect.mem_set_unit]
  exact Iff.rfl

/-- The blocks tile the output: entry (n, o) is in the block of the point whose block index is (n / 256, o / 256). -/
theorem cover (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := idx_onto ⟨(i 0).val / 256, by omega⟩ ⟨(i 1).val / 256, by omega⟩
  have q0 : win0_5.index t (0 : Fin 2) = (i 0).val / 256 := congrFun ht 0
  have q1 : win0_5.index t (1 : Fin 2) = (i 1).val / 256 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 256 ≤ (i 1).val ∧ (i 1).val < win0_5.index t (1 : Fin 2) * 256 + 256; omega

/-- THE OUTPUT ARRAY AFTER THE RUN is that function of the five flattened arrays. -/
theorem final (c : Dev nD) : (dats m 0 c).arrAt 5 cfg0.N = flat m c :=
  (dats m 0 c).arrAt_eq_of_cover 5 (flat m c) (fun t _ => flushed_eq m c t) (cover)

end Cert.KernelIdeal.Blocks

end
-- ==== Proof.KernelHost.lean ====
/-
  The host lines around the region. Before it, five reshapes flatten the arguments (batch and row merged; group and
  lane merged; the scales' and offsets' unit axis dropped; the bias made one row); after it, one reshape splits the
  output's rows back into batch and row. Each array the region finds is therefore the reshape of its argument, and the
  program's result is the reshape of the region's output array.
-/
import proofs.«177642_j44727789420717_1_alg».proof.Proof.Gen.KernelIdeal.Frame
import Idealize.ShloMosaic.Lib.StableHlo.Run
import Idealize.ShloMosaic.PureOps.Ideal

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The flattened input the region finds. -/
theorem entry_x (c : Dev nD) :
    (V m c main_v0 : S4096x4096.Idx → Elt Ideal .f32)
      = shapeCast S4096x4096 (m ((c : Thread nD τ).loc main_arg0) : S2x2048x4096.Idx → Elt Ideal .f32) shapeCasts_S2x2048x4096_S4096x4096 := by
  show StableHlo.after hostOps0 (fun b => m (c, b)) (Proc.devRef .tc main_v0) = _
  after_results
  rfl

/-- The flattened codes. -/
theorem entry_q (c : Dev nD) :
    (V m c main_v1 : S4096x4096.Idx → Elt Ideal .i32)
      = shapeCast S4096x4096 (m ((c : Thread nD τ).loc main_arg1) : S4096x32x128.Idx → Elt Ideal .i32) shapeCasts_S4096x32x128_S4096x4096 := by
  show StableHlo.after hostOps0 (fun b => m (c, b)) (Proc.devRef .tc main_v1) = _
  after_results
  rfl

/-- The scales without their unit axis. -/
theorem entry_s (c : Dev nD) :
    (V m c main_v2 : S4096x32.Idx → Elt Ideal .f32)
      = shapeCast S4096x32 (m ((c : Thread nD τ).loc main_arg2) : S4096x32x1.Idx → Elt Ideal .f32) shapeCasts_S4096x32x1_S4096x32 := by
  show StableHlo.after hostOps0 (fun b => m (c, b)) (Proc.devRef .tc main_v2) = _
  after_results
  rfl

/-- The offsets without their unit axis. -/
theorem entry_z (c : Dev nD) :
    (V m c main_v3 : S4096x32.Idx → Elt Ideal .f32)
      = shapeCast S4096x32 (m ((c : Thread nD τ).loc main_arg3) : S4096x32x1.Idx → Elt Ideal .f32) shapeCasts_S4096x32x1_S4096x32 := by
  show StableHlo.after hostOps0 (fun b => m (c, b)) (Proc.devRef .tc main_v3) = _
  after_results
  rfl

/-- The bias as one row. -/
theorem entry_b (c : Dev nD) :
    (V m c main_v4 : S1x4096.Idx → Elt Ideal .f32)
      = shapeCast S1x4096 (m ((c : Thread nD τ).loc main_arg4) : S4096.Idx → Elt Ideal .f32) shapeCasts_S4096_S1x4096 := by
  show StableHlo.after hostOps0 (fun b => m (c, b)) (Proc.devRef .tc main_v4) = _
  after_results
  rfl

/-- The program's result: the region's output array, its rows split back into batch and row. -/
theorem tail_eq (c : Dev nD) :
    (Pipeline.afterTail₀ cfgs (dats m) 0 (V0 m) [hostOps1] c main_v6 : S2x2048x4096.Idx → Elt Ideal .f32)
      = shapeCast S2x2048x4096 ((dats m 0 c).arrAt 5 cfg0.N : S4096x4096.Idx → Elt Ideal .f32) shapeCasts_S4096x4096_S2x2048x4096 := by
  unfold Pipeline.afterTail₀
  show StableHlo.after hostOps1 _ (Proc.devRef .tc main_v6) = _
  after_results
  exact congrArg (fun y : S4096x4096.Idx → Elt Ideal .f32 => shapeCast S2x2048x4096 y shapeCasts_S4096x4096_S2x2048x4096)
    (Pipeline.withArrays_arr spec0 launch0.win.arr_inj c _ _ 5)

end Cert.KernelIdeal.Host

end
-- ==== Proof.KernelResult.lean ====
/-
  The flattened result, reshaped to [2, 2048, 4096], is the specification of the unflattened arguments.

  Every reshape keeps the row-major position. Entry (a, r, o) of the reshaped result is entry (a · 2048 + r, o) of the
  flat one; flat input row `a · 2048 + r` at column `k` is the input at (a, r, k); flat code (o, k) is the code at
  (o, k / 128, k % 128), because `o · 4096 + k = (o · 32 + k / 128) · 128 + k % 128`; flat scale (o, g) is the scale at
  (o, g, 0); and the bias row's column `o` is the bias at `o`.
-/
import proofs.«177642_j44727789420717_1_alg».proof.Proof.KernelSpec
import Idealize.ShloMosaic.Lib.Pipeline.Value

noncomputable section

namespace Cert.KernelResult

open Idealize.ShloMosaic Idealize.ShloMosaic.ValueIdx Cert.Spec Cert.KernelSpec

/-- Batch `a` and row `r` merged: the flattened row. -/
abbrev flatRow (a : Fin 2) (r : Fin 2048) : Fin 4096 := ⟨a.val * 2048 + r.val, by have := a.isLt; have := r.isLt; omega⟩

/-- The flattened input at (a · 2048 + r, k) is the input at (a, r, k). -/
theorem input_apply {α : Type} (x : (⟨3, ![2, 2048, 4096]⟩ : Shape).Idx → α)
    (h : (⟨3, ![2, 2048, 4096]⟩ : Shape).ShapeCasts ⟨2, ![4096, 4096]⟩) (a : Fin 2) (r : Fin 2048) (k : Fin 4096) :
    shapeCast ⟨2, ![4096, 4096]⟩ x h (ix2 (flatRow a r) k) = x (ix3 a r k) :=
  shapeCast_apply x h (ix2 (flatRow a r) k) (ix3 a r k) (by
    rw [Shape.rowMajor_val_two, Shape.rowMajor_val_three]
    show (a.val * 2048 + r.val) * 4096 + k.val = (a.val * 2048 + r.val) * 4096 + k.val
    rfl)

/-- The flattened codes at (o, k) are the codes at (o, k / 128, k % 128). -/
theorem code_apply {α : Type} (q : (⟨3, ![4096, 32, 128]⟩ : Shape).Idx → α)
    (h : (⟨3, ![4096, 32, 128]⟩ : Shape).ShapeCasts ⟨2, ![4096, 4096]⟩) (o k : Fin 4096) :
    shapeCast ⟨2, ![4096, 4096]⟩ q h (ix2 o k) = q (ix3 o (grp k) (lane k)) :=
  shapeCast_apply q h (ix2 o k) (ix3 o (grp k) (lane k)) (by
    rw [Shape.rowMajor_val_two, Shape.rowMajor_val_three]
    have hk : k.val < 4096 := k.isLt
    show (o.val * 32 + k.val / 128) * 128 + k.val % 128 = o.val * 4096 + k.val
    omega)

/-- The flattened scales (or offsets) at (o, g) are the entry at (o, g, 0). -/
theorem group_apply {α : Type} (s : (⟨3, ![4096, 32, 1]⟩ : Shape).Idx → α)
    (h : (⟨3, ![4096, 32, 1]⟩ : Shape).ShapeCasts ⟨2, ![4096, 32]⟩) (o : Fin 4096) (g : Fin 32) :
    shapeCast ⟨2, ![4096, 32]⟩ s h (ix2 o g) = s (ix3 o g (0 : Fin 1)) :=
  shapeCast_apply s h (ix2 o g) (ix3 o g (0 : Fin 1)) (by
    rw [Shape.rowMajor_val_two, Shape.rowMajor_val_three]
    show (o.val * 32 + g.val) * 1 + 0 = o.val * 32 + g.val
    omega)

/-- The bias as one row: column `o` is the bias at `o`. -/
theorem bias_apply {α : Type} (b : (⟨1, ![4096]⟩ : Shape).Idx → α)
    (h : (⟨1, ![4096]⟩ : Shape).ShapeCasts ⟨2, ![1, 4096]⟩) (o : Fin 4096) :
    shapeCast ⟨2, ![1, 4096]⟩ b h (ix2 (0 : Fin 1) o) = b (ix1 o) :=
  shapeCast_apply b h (ix2 (0 : Fin 1) o) (ix1 o) (by
    rw [Shape.rowMajor_val_two, Shape.rowMajor_val_one]
    show o.val = 0 * 4096 + o.val
    omega)

/-- The reshaped result at (a, r, o) is the flat result at (a · 2048 + r, o). -/
theorem output_apply {α : Type} (y : (⟨2, ![4096, 4096]⟩ : Shape).Idx → α)
    (h : (⟨2, ![4096, 4096]⟩ : Shape).ShapeCasts ⟨3, ![2, 2048, 4096]⟩) (a : Fin 2) (r : Fin 2048) (o : Fin 4096) :
    shapeCast ⟨3, ![2, 2048, 4096]⟩ y h (ix3 a r o) = y (ix2 (flatRow a r) o) :=
  shapeCast_apply y h (ix3 a r o) (ix2 (flatRow a r) o) (by
    rw [Shape.rowMajor_val_two, Shape.rowMajor_val_three]
    show (a.val * 2048 + r.val) * 4096 + o.val = (a.val * 2048 + r.val) * 4096 + o.val
    rfl)

/-- The flat weight of the flattened arrays is the weight of the unflattened ones. -/
theorem weight_eq (q : (⟨3, ![4096, 32, 128]⟩ : Shape).Idx → BitVec 32) (s z : (⟨3, ![4096, 32, 1]⟩ : Shape).Idx → EReal)
    (hq : (⟨3, ![4096, 32, 128]⟩ : Shape).ShapeCasts ⟨2, ![4096, 4096]⟩)
    (hs : (⟨3, ![4096, 32, 1]⟩ : Shape).ShapeCasts ⟨2, ![4096, 32]⟩) (o k : Fin 4096) :
    flatWeight (shapeCast ⟨2, ![4096, 4096]⟩ q hq) (shapeCast ⟨2, ![4096, 32]⟩ s hs) (shapeCast ⟨2, ![4096, 32]⟩ z hs) o k
      = weight q s z o k := by
  unfold flatWeight weight
  rw [code_apply, group_apply, group_apply]

/-- THE RESHAPED FLAT RESULT IS THE SPECIFICATION. -/
theorem result_eq (x : (⟨3, ![2, 2048, 4096]⟩ : Shape).Idx → EReal) (q : (⟨3, ![4096, 32, 128]⟩ : Shape).Idx → BitVec 32)
    (s z : (⟨3, ![4096, 32, 1]⟩ : Shape).Idx → EReal) (b : (⟨1, ![4096]⟩ : Shape).Idx → EReal)
    (hx : (⟨3, ![2, 2048, 4096]⟩ : Shape).ShapeCasts ⟨2, ![4096, 4096]⟩)
    (hq : (⟨3, ![4096, 32, 128]⟩ : Shape).ShapeCasts ⟨2, ![4096, 4096]⟩)
    (hs : (⟨3, ![4096, 32, 1]⟩ : Shape).ShapeCasts ⟨2, ![4096, 32]⟩)
    (hb : (⟨1, ![4096]⟩ : Shape).ShapeCasts ⟨2, ![1, 4096]⟩)
    (hy : (⟨2, ![4096, 4096]⟩ : Shape).ShapeCasts ⟨3, ![2, 2048, 4096]⟩) :
    shapeCast ⟨3, ![2, 2048, 4096]⟩
        (flatResult (shapeCast ⟨2, ![4096, 4096]⟩ x hx) (shapeCast ⟨2, ![4096, 4096]⟩ q hq) (shapeCast ⟨2, ![4096, 32]⟩ s hs)
          (shapeCast ⟨2, ![4096, 32]⟩ z hs) (shapeCast ⟨2, ![1, 4096]⟩ b hb)) hy
      = result x q s z b := by
  funext i
  obtain ⟨a, r, o, rfl⟩ : ∃ (a : Fin 2) (r : Fin 2048) (o : Fin 4096), i = ix3 a r o := ⟨i 0, i 1, i 2, eq_ix3 i⟩
  rw [output_apply]
  show flatEntry _ _ _ _ _ (flatRow a r) o = entry x q s z b a r o
  unfold flatEntry entry
  rw [bias_apply]
  refine congrArg (· + b (ix1 o)) (Finset.sum_congr rfl fun k _ => ?_)
  rw [input_apply, weight_eq]

end Cert.KernelResult

end
-- ==== Proof.KernelRun.lean ====
/-
  The idealized kernel's run, with its result named: every weakly fair execution terminates with the result array at
  `Cert.Spec.result` of the five argument arrays, and the arguments as launched.

  The pieces: the region's output array is one function of the flattened arrays it finds (the blocks tile it); those
  arrays are the reshapes of the arguments (the host lines before the region); the result is the reshape of the region's
  output (the host line after it); and that reshape of that function of those reshapes is the specification, index by
  index, because every reshape keeps the row-major position.
-/
import proofs.«177642_j44727789420717_1_alg».proof.Proof.KernelBlocks
import proofs.«177642_j44727789420717_1_alg».proof.Proof.KernelHost
import proofs.«177642_j44727789420717_1_alg».proof.Proof.KernelResult

noncomputable section

namespace Cert.KernelIdeal.Run

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The specification of the arguments as launched on core `c`. -/
abbrev spec (c : Dev nD) : S2x2048x4096.Idx → Elt Ideal .f32 :=
  Cert.Spec.result (m ((c : Thread nD τ).loc main_arg0)) (m ((c : Thread nD τ).loc main_arg1)) (m ((c : Thread nD τ).loc main_arg2))
    (m ((c : Thread nD τ).loc main_arg3)) (m ((c : Thread nD τ).loc main_arg4))

/-- What the host line after the region leaves in the result buffer is the specification. -/
theorem value (c : Dev nD) :
    (Pipeline.afterTail₀ cfgs (dats m) 0 (V0 m) [hostOps1] c main_v6 : S2x2048x4096.Idx → Elt Ideal .f32) = spec m c := by
  rw [Cert.KernelIdeal.Host.tail_eq, Cert.KernelIdeal.Blocks.final]
  unfold Cert.KernelIdeal.Blocks.flat
  rw [Cert.KernelIdeal.Host.entry_x, Cert.KernelIdeal.Host.entry_q, Cert.KernelIdeal.Host.entry_s,
    Cert.KernelIdeal.Host.entry_z, Cert.KernelIdeal.Host.entry_b]
  exact Cert.KernelResult.result_eq _ _ _ _ _ _ _ _ _ _

/-- THE RUN, READ: the result at the specification, the five arguments unchanged. -/
theorem run : θ_run defs (onTc (τ := τ) (main (F := Ideal))) ⟨m, fun _ => 0, ρ⟩ fun r => ∀ c : Dev nD,
      r.2.mem ((c.tc : Thread nD τ).loc main_v6) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.lean ====
/-
  The certificate of a linear layer with a quantized weight matrix: a tiled kernel against a plain reference.

  Both programs compute, at batch `a`, row `r` and output feature `o`,

      out[a, r, o] = (Σ k < 4096, x[a, r, k] · (q[o, k / 128, k % 128] · s[o, k / 128] + z[o, k / 128])) + b[o]

  over the extended reals (`Cert.Spec.result`): integer codes `q` in 32 groups of 128 lanes per output feature, one
  scale `s` and one offset `z` per group, a bias `b`.

  The reference dequantizes the whole weight array, flattens it, contracts it with the input and adds the bias; read
  stage by stage at an index it is that formula (`Cert.ReferenceIdeal.RefValue.result_eq`). The kernel flattens batch
  and row into 4096 rows, tiles the [4096, 4096] output in 16 × 16 blocks of 256 × 256, and at each block dequantizes
  256 weight rows, multiplies the 256 input rows by them along the whole axis of 4096 into a zero accumulator, and adds
  the bias; narrowing the matrix operands to a shorter float format is the identity on the extended reals, the block
  product into zero is the plain sum, the blocks tile the output, and every reshape keeps the row-major position — so
  its result is the same formula (`Cert.KernelIdeal.Run.run`). The two sides meet term by term: the same products in
  the same order under the same sum, and the bias added last, so no finiteness of the inputs is used.

  The three frames are the generated runs; the idealization rewrote nothing, so `preserves` is trivial.
-/
import proofs.«177642_j44727789420717_1_alg».proof.Defs
import proofs.«177642_j44727789420717_1_alg».proof.Proof.Gen.Kernel
import proofs.«177642_j44727789420717_1_alg».proof.Proof.Gen.Kernel.Skeleton
import proofs.«177642_j44727789420717_1_alg».proof.Proof.Gen.Kernel.Launch
import proofs.«177642_j44727789420717_1_alg».proof.Proof.Gen.Kernel.Points
import proofs.«177642_j44727789420717_1_alg».proof.Proof.Gen.Kernel.Frame
import proofs.«177642_j44727789420717_1_alg».proof.Proof.Gen.KernelIdeal
import proofs.«177642_j44727789420717_1_alg».proof.Proof.Gen.KernelIdeal.Skeleton
import proofs.«177642_j44727789420717_1_alg».proof.Proof.Gen.KernelIdeal.Launch
import proofs.«177642_j44727789420717_1_alg».proof.Proof.Gen.KernelIdeal.Points
import proofs.«177642_j44727789420717_1_alg».proof.Proof.Gen.KernelIdeal.Frame
import proofs.«177642_j44727789420717_1_alg».proof.Proof.Gen.ReferenceIdeal
import proofs.«177642_j44727789420717_1_alg».proof.Proof.Gen.Pre_finite_inputs
import proofs.«177642_j44727789420717_1_alg».proof.Proof.Gen.ReferenceIdeal.Run
import proofs.«177642_j44727789420717_1_alg».proof.Proof.Gen.ReferenceIdeal.Read
import proofs.«177642_j44727789420717_1_alg».proof.Proof.RefValue
import proofs.«177642_j44727789420717_1_alg».proof.Proof.KernelRun
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments, both idealized programs end with the result array at the
    specification of those arguments: the kernel by its run read through its blocks and reshapes, the reference by its
    run read stage by stage. -/
theorem algebraic : Cert.algebraic_KernelIdeal_ReferenceIdeal := by
  intro m ρ m' ρ' _ hagree
  refine ⟨fun c => Cert.KernelIdeal.Run.spec m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v9_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
